-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x32 .f32) (main_arg11 : FVec F S32 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x32 .f32) (main_arg11 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x32 .f32) (main_arg11 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 63
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S1x64, .f32⟩
  | .hbm, ⟨61, _⟩ => ⟨S1x32, .f32⟩
  | .hbm, ⟨62, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x32, .f32⟩
  | .local _ .vmem, ⟨19, _⟩ => ⟨S1x32, .f32⟩
  | .local _ .vmem, ⟨20, _⟩ => ⟨S5000x32, .f32⟩
  | .local _ .vmem, ⟨21, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .f32 = 32 ∨ (Rect.block (s := S64x32) S64x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x32.size a ≤ S100000x32.size a
  hwx1_8 : ∀ i : grid1.Coords, EltTy.bits .f32 = 32 ∨ (Rect.block (s := S100000x32) S5000x32.size (cc1_transform_8 i) (hinb1_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S5000x32.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x32, .f32⟩
  | .hbm, ⟨93, _⟩ => ⟨S1x32, .f32⟩
  | .hbm, ⟨94, _⟩ => ⟨S100000x32, .f32⟩
  | .hbm, ⟨95, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_cst : Ref sig .tc := ⟨.hbm, 51, rfl⟩
abbrev main_call1_v0 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_cst : Ref sig .tc := ⟨.hbm, 89, rfl⟩
abbrev main_call3_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The whole program's run, with every buffer named at the end.

  The program is four stretches in a row: host operations, the first kernel call over its 20 row blocks, host
  operations again, the second kernel call over its 20 row blocks.  Every weakly fair execution from a memory with
  zero counters terminates without a fault, and when it does each buffer outside the kernels' staging memory holds
  what the fold of the four stretches leaves there: the host stretches apply their operations in order, and each
  call leaves its input arrays as they were and its output array at what its blocks wrote back.  In particular the
  result array is the second call's output array at that fold, and the twelve arguments are as launched.
-/
import proofs.«172024_j52931176956147_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and at the end every buffer outside the staging memory holds the fold's
    last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array ends at the fold's contents of the second call's output, and the arguments as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)
    (run_all m ρ)

end Cert.KernelIdeal.Whole

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«172024_j52931176956147_2_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.Payload.lean ====
/-
  The two kernel bodies, read at one entry of the block they store.

  The first body stores, for a block of 5000 rows, the rectified sum of two affine maps: entry `(p, q)` is
  `max ((Σ n, x (p, n) * Ws (n, q) + bs (0, q)) + (Σ n, a (p, n) * Wn (n, q) + bn (0, q))) 0`, with `x` the block of node
  features, `a` the block of neighbour means, and the biases rows of shape [1, 64].  The second body applies the
  same map to its two input blocks and then one more affine map, into 32 columns, to the rectified rows.  Over the
  extended reals a change of float format is the identity, so the narrowing of the operands before each product
  leaves them as they are.
-/
import proofs.«172024_j52931176956147_2_alg».proof.Proof.Gen.KernelIdeal.Skeleton
import proofs.«172024_j52931176956147_2_alg».proof.Proof.LibDenseLayer

noncomputable section

namespace Cert.KernelIdeal.Dense

open Idealize.ShloMosaic Idealize.ShloMosaic.ValueIdx Idealize.ShloMosaic.DenseBlock Idealize.ShloMosaic.DenseLayer
open Cert.KernelIdeal Cert.KernelIdeal.Gen

/-- One rectified layer at row `p`, column `q`, of blocks with `R` rows; the biases are rows of shape [1, 64]. -/
def layerAt {R : Nat} (x a : (⟨2, ![R, 64]⟩ : Shape).Idx → EReal) (Ws : (⟨2, ![64, 64]⟩ : Shape).Idx → EReal)
    (bs : (⟨2, ![1, 64]⟩ : Shape).Idx → EReal) (Wn : (⟨2, ![64, 64]⟩ : Shape).Idx → EReal)
    (bn : (⟨2, ![1, 64]⟩ : Shape).Idx → EReal) (p : Fin R) (q : Fin 64) : EReal :=
  max (((∑ n : Fin 64, x (ix2 p n) * Ws (ix2 n q)) + bs (ix2 (0 : Fin 1) q))
    + ((∑ n : Fin 64, a (ix2 p n) * Wn (ix2 n q)) + bn (ix2 (0 : Fin 1) q))) 0

/-- The output map at row `p`, column `q`: an affine map into 32 columns of rows `h`. -/
def outAt {R : Nat} (h : Fin R → Fin 64 → EReal) (Wo : (⟨2, ![64, 32]⟩ : Shape).Idx → EReal)
    (bo : (⟨2, ![1, 32]⟩ : Shape).Idx → EReal) (p : Fin R) (q : Fin 32) : EReal :=
  (∑ n : Fin 64, h p n * Wo (ix2 n q)) + bo (ix2 (0 : Fin 1) q)

/-- The first body's stored value at `(p, q)`. -/
theorem pay0_apply (v0 v1 : Vec Ideal S5000x64 .f32) (v3 v5 : Vec Ideal S64x64 .f32) (v7 v9 : Vec Ideal S1x64 .f32)
    (p : Fin 5000) (q : Fin 64) :
    k0_pay1 (F := Ideal) v0 v1 v3 v5 v7 v9 (ix2 p q) = layerAt v0 v1 v3 v7 v5 v9 p q := by
  unfold k0_pay1 layerAt
  simp only [shapeCast_self]
  show max (addf (matmul (mmDims 5000 64 64 dot_S5000x64_S64x64_S5000x64_1_0_0_1_n_n_wf) none v0 v3
        (constant ⟨2, ![5000, 64]⟩ .f32 0x00000000#32)) (broadcastTo ⟨2, ![5000, 64]⟩ v7 broadcasts_S1x64_S5000x64) (ix2 p q)
      + addf (matmul (mmDims 5000 64 64 dot_S5000x64_S64x64_S5000x64_1_0_0_1_n_n_wf) none v1 v5
        (constant ⟨2, ![5000, 64]⟩ .f32 0x00000000#32)) (broadcastTo ⟨2, ![5000, 64]⟩ v9 broadcasts_S1x64_S5000x64) (ix2 p q))
      (Ideal.ofBits .f32 0x00000000#32) = _
  rw [affine_apply _ v0 v3 v7 _ p q, affine_apply _ v1 v5 v9 _ p q, Ideal.ofBits_zero_f32]

/-- The second body's stored value at `(p, q)`. -/
theorem pay1_apply (v0 v2 : Vec Ideal S5000x64 .f32) (v4 v6 : Vec Ideal S64x64 .f32) (v8 : Vec Ideal S64x32 .f32)
    (v10 v12 : Vec Ideal S1x64 .f32) (v14 : Vec Ideal S1x32 .f32) (p : Fin 5000) (q : Fin 32) :
    k1_pay1 (F := Ideal) v0 v2 v4 v6 v8 v10 v12 v14 (ix2 p q)
      = outAt (fun r n => layerAt v0 v2 v4 v10 v6 v12 r n) v8 v14 p q := by
  unfold k1_pay1 outAt
  simp only [shapeCast_self]
  -- the last affine map, over any block `H` of rectified rows
  have key : ∀ (H : FVec Ideal S5000x64 .f32), (∀ (r : Fin 5000) (n : Fin 64), H (ix2 r n) = layerAt v0 v2 v4 v10 v6 v12 r n) →
      addf (matmul dot_S5000x64_S64x32_S5000x32_1_0_0_1_n_n none (truncf .bf16 H bitsLt_bf16_f32) (truncf .bf16 v8 bitsLt_bf16_f32)
          (constant S5000x32 .f32 0x00000000#32)) (broadcastTo S5000x32 v14 broadcasts_S1x32_S5000x32) (ix2 p q)
        = (∑ n : Fin 64, layerAt v0 v2 v4 v10 v6 v12 p n * v8 (ix2 n q)) + v14 (ix2 (0 : Fin 1) q) := by
    intro H hH
    show addf (matmul (F := Ideal) (φ₁ := .f32) (φ₂ := .f32) (mmDims 5000 64 32 dot_S5000x64_S64x32_S5000x32_1_0_0_1_n_n_wf) none H v8
        (constant ⟨2, ![5000, 32]⟩ .f32 0x00000000#32)) (broadcastTo ⟨2, ![5000, 32]⟩ v14 broadcasts_S1x32_S5000x32) (ix2 p q) = _
    rw [affine_apply _ H v8 v14 _ p q]
    simp only [hH]
  exact key _ (fun r n => by
    have := pay0_apply v0 v2 v4 v6 v10 v12 r n
    unfold k0_pay1 at this
    simp only [shapeCast_self] at this
    exact this)

end Cert.KernelIdeal.Dense

end
-- ==== Proof.Blocks0.lean ====
/-
  The first kernel call, from blocks to the whole array.

  The call walks 20 blocks of 5000 rows.  At block `t` the body reads rows `5000 t … 5000 t + 4999` of the node
  features and of the neighbour means, the two weight matrices and the two bias rows whole, and writes the same rows of
  the output.  So the output array ends as ONE function of the six input arrays: row `r`, column `q` is the rectified
  layer of row `r` of the two inputs.  The blocks tile the array: row `r` is written by block `r / 5000`.
-/
import proofs.«172024_j52931176956147_2_alg».proof.Proof.Gen.KernelIdeal.Frame
import proofs.«172024_j52931176956147_2_alg».proof.Proof.Payload
import Idealize.ShloMosaic.Lib.Pipeline.Value

set_option maxRecDepth 16384

noncomputable section

namespace Cert.KernelIdeal.Dense

open Idealize.ShloMosaic Idealize.ShloMosaic.TcCoe Idealize.ShloMosaic.ValueIdx Idealize.SL.Sem
open Idealize.ShloMosaic.Pipeline (Dat)
open Cert.KernelIdeal Cert.KernelIdeal.Gen

theorem off_zero : (![0, 0] : Fin 2 → Nat) = fun _ => 0 := funext fun a => by fin_cases a <;> rfl

/-- The rectified layer as a whole array of 100000 rows. -/
def layer (x a : S100000x64.Idx → EReal) (Ws : S64x64.Idx → EReal) (bs : S1x64.Idx → EReal)
    (Wn : S64x64.Idx → EReal) (bn : S1x64.Idx → EReal) : S100000x64.Idx → EReal :=
  fun i => layerAt x a Ws bs Wn bn (i 0) (i 1)

/-- A block of 5000 rows starting at row `r0`: the body's value on the block is the whole-array layer at the
    block's rows. -/
theorem layer_block (x a : S100000x64.Idx → EReal) (Ws : S64x64.Idx → EReal) (bs : S1x64.Idx → EReal)
    (Wn : S64x64.Idx → EReal) (bn : S1x64.Idx → EReal)
    (v0 v1 : Vec Ideal S5000x64 .f32) (r0 : Nat) (hr : r0 + 5000 ≤ 100000)
    (h0 : ∀ (p : Fin 5000) (n : Fin 64), v0 (ix2 p n) = x (ix2 (⟨r0 + p.val, by have := p.isLt; omega⟩ : Fin 100000) n))
    (h1 : ∀ (p : Fin 5000) (n : Fin 64), v1 (ix2 p n) = a (ix2 (⟨r0 + p.val, by have := p.isLt; omega⟩ : Fin 100000) n))
    (p : Fin 5000) (q : Fin 64) :
    k0_pay1 (F := Ideal) v0 v1 Ws Wn bs bn (ix2 p q)
      = layer x a Ws bs Wn bn (ix2 (⟨r0 + p.val, by have := p.isLt; omega⟩ : Fin 100000) q) := by
  rw [pay0_apply]
  unfold layer layerAt
  simp only [h0, h1]

variable (V : (c : Dev nD) → (b : Ref sig .tc) → Buf (Elt Ideal) ((c : Thread nD τ).loc b))

/-- The printed index maps over the grid: the row windows sit at block row `t`, column block 0; the weights and biases
    at block (0, 0). -/
theorem idx_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block row is some point's. -/
theorem idx_onto0 : ∀ q0 : Fin 20, ∃ t : Fin cfg0.N, t.val = q0.val :=
  (by decide +kernel : ∀ q0 : Fin 20, ∃ t : Fin grid0.N, t.val = q0.val)

theorem t_lt0 (t : Fin cfg0.N) : t.val < 20 := lt_of_lt_of_eq t.isLt N_0

/-- The weight and bias windows hold their whole arrays at every point. -/
theorem blk0_2 (c : Dev nD) (t : Fin cfg0.N) : iblk0 V c 2 t = V c main_arg2 := by
  obtain ⟨e00, e01, e10, e11, e20, e21, e30, e31, e40, e41, e50, e51, e60, e61⟩ := idx_facts0 t
  funext y
  show V c main_arg2 (((cfg0.win 2).blk t).view.emb y) = V c main_arg2 y
  refine congrArg (V c main_arg2) (funext fun ax => Fin.ext ?_)
  match ax with
  | ⟨0, _⟩ => show win0_2.index t (0 : Fin 2) * 64 + 1 * (y 0).val = (y 0).val; omega
  | ⟨1, _⟩ => show win0_2.index t (1 : Fin 2) * 64 + 1 * (y 1).val = (y 1).val; omega
theorem blk0_4 (c : Dev nD) (t : Fin cfg0.N) : iblk0 V c 4 t = V c main_arg4 := by
  obtain ⟨e00, e01, e10, e11, e20, e21, e30, e31, e40, e41, e50, e51, e60, e61⟩ := idx_facts0 t
  funext y
  show V c main_arg4 (((cfg0.win 4).blk t).view.emb y) = V c main_arg4 y
  refine congrArg (V c main_arg4) (funext fun ax => Fin.ext ?_)
  match ax with
  | ⟨0, _⟩ => show win0_4.index t (0 : Fin 2) * 64 + 1 * (y 0).val = (y 0).val; omega
  | ⟨1, _⟩ => show win0_4.index t (1 : Fin 2) * 64 + 1 * (y 1).val = (y 1).val; omega
theorem blk0_3 (c : Dev nD) (t : Fin cfg0.N) : iblk0 V c 3 t = V c main_v23 := by
  obtain ⟨e00, e01, e10, e11, e20, e21, e30, e31, e40, e41, e50, e51, e60, e61⟩ := idx_facts0 t
  funext y
  show V c main_v23 (((cfg0.win 3).blk t).view.emb y) = V c main_v23 y
  refine congrArg (V c main_v23) (funext fun ax => Fin.ext ?_)
  match ax with
  | ⟨0, _⟩ => show win0_3.index t (0 : Fin 2) * 1 + 1 * (y 0).val = (y 0).val; omega
  | ⟨1, _⟩ => show win0_3.index t (1 : Fin 2) * 64 + 1 * (y 1).val = (y 1).val; omega
theorem blk0_5 (c : Dev nD) (t : Fin cfg0.N) : iblk0 V c 5 t = V c main_v24 := by
  obtain ⟨e00, e01, e10, e11, e20, e21, e30, e31, e40, e41, e50, e51, e60, e61⟩ := idx_facts0 t
  funext y
  show V c main_v24 (((cfg0.win 5).blk t).view.emb y) = V c main_v24 y
  refine congrArg (V c main_v24) (funext fun ax => Fin.ext ?_)
  match ax with
  | ⟨0, _⟩ => show win0_5.index t (0 : Fin 2) * 1 + 1 * (y 0).val = (y 0).val; omega
  | ⟨1, _⟩ => show win0_5.index t (1 : Fin 2) * 64 + 1 * (y 1).val = (y 1).val; omega

/-- The two row windows hold rows `5000 t …` of their arrays. -/
theorem blk0_0 (c : Dev nD) (t : Fin cfg0.N) (p : Fin 5000) (n : Fin 64) :
    iblk0 V c 0 t (ix2 p n) = V c main_arg0 (ix2 (⟨t.val * 5000 + p.val, by have := p.isLt; have := t_lt0 t; omega⟩ : Fin 100000) n) := by
  obtain ⟨e00, e01, e10, e11, e20, e21, e30, e31, e40, e41, e50, e51, e60, e61⟩ := idx_facts0 t
  show V c main_arg0 (((cfg0.win 0).blk t).view.emb (ix2 p n)) = _
  refine congrArg (V c main_arg0) (funext fun ax => Fin.ext ?_)
  match ax with
  | ⟨0, _⟩ => show win0_0.index t (0 : Fin 2) * 5000 + 1 * p.val = t.val * 5000 + p.val; omega
  | ⟨1, _⟩ => show win0_0.index t (1 : Fin 2) * 64 + 1 * n.val = n.val; omega
theorem blk0_1 (c : Dev nD) (t : Fin cfg0.N) (p : Fin 5000) (n : Fin 64) :
    iblk0 V c 1 t (ix2 p n) = V c main_v22 (ix2 (⟨t.val * 5000 + p.val, by have := p.isLt; have := t_lt0 t; omega⟩ : Fin 100000) n) := by
  obtain ⟨e00, e01, e10, e11, e20, e21, e30, e31, e40, e41, e50, e51, e60, e61⟩ := idx_facts0 t
  show V c main_v22 (((cfg0.win 1).blk t).view.emb (ix2 p n)) = _
  refine congrArg (V c main_v22) (funext fun ax => Fin.ext ?_)
  match ax with
  | ⟨0, _⟩ => show win0_1.index t (0 : Fin 2) * 5000 + 1 * p.val = t.val * 5000 + p.val; omega
  | ⟨1, _⟩ => show win0_1.index t (1 : Fin 2) * 64 + 1 * n.val = n.val; omega

/-- Entry `(p, q)` of the output block at point `t` is entry `(5000 t + p, q)` of the array. -/
theorem emb0_6 (t : Fin cfg0.N) (p : Fin 5000) (q : Fin 64) :
    ((cfg0.win 6).blk t).view.emb (ix2 p q) = ix2 (⟨t.val * 5000 + p.val, by have := p.isLt; have := t_lt0 t; omega⟩ : Fin 100000) q := by
  obtain ⟨e00, e01, e10, e11, e20, e21, e30, e31, e40, e41, e50, e51, e60, e61⟩ := idx_facts0 t
  funext ax; apply Fin.ext
  match ax with
  | ⟨0, _⟩ => show win0_6.index t (0 : Fin 2) * 5000 + 1 * p.val = t.val * 5000 + p.val; omega
  | ⟨1, _⟩ => show win0_6.index t (1 : Fin 2) * 64 + 1 * q.val = q.val; omega

/-- What point `t` writes back is block `t` of the whole-array layer of the arrays as the call finds them. -/
theorem flushed0_eq (c : Dev nD) (t : Fin cfg0.N) :
    (dat0 V c).flushed 6 t = ((cfg0.win 6).blk t).view.read (Elt Ideal)
      (layer (V c main_arg0) (V c main_v22) (V c main_arg2) (V c main_v23) (V c main_arg4) (V c main_v24)) := by
  show (cfg0.win 6).cut (grid0.coords t) ((dat0 V c).after 6 t) = _
  rw [after0_6]
  unfold out0_6
  rw [View.canon_unit_zero off_zero]
  simp only [View.ld_unit_zero (S := S5000x64) off_zero, View.ld_unit_zero (S := S64x64) off_zero,
    View.ld_unit_zero (S := S1x64) off_zero]
  rw [blk0_2, blk0_4, blk0_3, blk0_5]
  funext j
  obtain ⟨p, q, rfl⟩ : ∃ (p : Fin 5000) (q : Fin 64), j = ix2 p q := ⟨j 0, j 1, eq_ix2 j⟩
  have hr : t.val * 5000 + 5000 ≤ 100000 := by have := t_lt0 t; omega
  refine (layer_block (V c main_arg0) (V c main_v22) (V c main_arg2) (V c main_v23) (V c main_arg4) (V c main_v24)
    (iblk0 V c 0 t) (iblk0 V c 1 t) (t.val * 5000) hr (blk0_0 V c t) (blk0_1 V c t) p q).trans ?_
  show layer _ _ _ _ _ _ _ = layer _ _ _ _ _ _ (((cfg0.win 6).blk t).view.emb (ix2 p q))
  rw [emb0_6]

/-- An index of the output array is in point `t`'s block iff each coordinate is in the block's range. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v25).slice (win0_6.rect t)).set ↔ _
  rw [View.set_slice_whole, Rect.mem_set_unit]
  exact Iff.rfl

/-- Every index of the output array is in some point's block: row `r` in block `r / 5000`. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto0 ⟨(i 0).val / 5000, by omega⟩
  have ht' : t.val = (i 0).val / 5000 := ht
  obtain ⟨e00, e01, e10, e11, e20, e21, e30, e31, e40, e41, e50, e51, e60, e61⟩ := idx_facts0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The first call's output array after the call: the rectified layer of the arrays the call found. -/
theorem array0 (c : Dev nD) : (dat0 V c).arrAt 6 cfg0.N
    = layer (V c main_arg0) (V c main_v22) (V c main_arg2) (V c main_v23) (V c main_arg4) (V c main_v24) :=
  (dat0 V c).arrAt_eq_of_cover 6 _ (fun t _ => flushed0_eq V c t) cover0

end Cert.KernelIdeal.Dense

end
-- ==== Proof.Blocks1.lean ====
/-
  The second kernel call, from blocks to the whole array.

  The call walks 20 blocks of 5000 rows.  At block `t` the body reads rows `5000 t … 5000 t + 4999` of the hidden
  features and of their neighbour means, three weight matrices and three bias rows whole, and writes the same rows of
  the 32-column output.  So the output array ends as ONE function of the eight input arrays: row `r`, column `q` is
  the output map of the rectified layer of row `r`.  The blocks tile the array: row `r` is written by block `r / 5000`.
-/
import proofs.«172024_j52931176956147_2_alg».proof.Proof.Gen.KernelIdeal.Frame
import proofs.«172024_j52931176956147_2_alg».proof.Proof.Blocks0

set_option maxRecDepth 16384

noncomputable section

namespace Cert.KernelIdeal.Dense

open Idealize.ShloMosaic Idealize.ShloMosaic.TcCoe Idealize.ShloMosaic.ValueIdx Idealize.SL.Sem
open Idealize.ShloMosaic.Pipeline (Dat)
open Cert.KernelIdeal Cert.KernelIdeal.Gen

/-- The output map of the rectified layer, as a whole array of 100000 rows and 32 columns. -/
def logits (h a : S100000x64.Idx → EReal) (Ws : S64x64.Idx → EReal) (bs : S1x64.Idx → EReal)
    (Wn : S64x64.Idx → EReal) (bn : S1x64.Idx → EReal) (Wo : S64x32.Idx → EReal) (bo : S1x32.Idx → EReal) :
    S100000x32.Idx → EReal :=
  fun i => outAt (fun r n => layerAt h a Ws bs Wn bn r n) Wo bo (i 0) (i 1)

/-- A block of 5000 rows starting at row `r0`: the body's value on the block is the whole-array map at the
    block's rows. -/
theorem logits_block (h a : S100000x64.Idx → EReal) (Ws : S64x64.Idx → EReal) (bs : S1x64.Idx → EReal)
    (Wn : S64x64.Idx → EReal) (bn : S1x64.Idx → EReal) (Wo : S64x32.Idx → EReal) (bo : S1x32.Idx → EReal)
    (v0 v2 : Vec Ideal S5000x64 .f32) (r0 : Nat) (hr : r0 + 5000 ≤ 100000)
    (h0 : ∀ (p : Fin 5000) (n : Fin 64), v0 (ix2 p n) = h (ix2 (⟨r0 + p.val, by have := p.isLt; omega⟩ : Fin 100000) n))
    (h2 : ∀ (p : Fin 5000) (n : Fin 64), v2 (ix2 p n) = a (ix2 (⟨r0 + p.val, by have := p.isLt; omega⟩ : Fin 100000) n))
    (p : Fin 5000) (q : Fin 32) :
    k1_pay1 (F := Ideal) v0 v2 Ws Wn Wo bs bn bo (ix2 p q)
      = logits h a Ws bs Wn bn Wo bo (ix2 (⟨r0 + p.val, by have := p.isLt; omega⟩ : Fin 100000) q) := by
  rw [pay1_apply]
  unfold logits outAt layerAt
  simp only [h0, h2]

variable (V : (c : Dev nD) → (b : Ref sig .tc) → Buf (Elt Ideal) ((c : Thread nD τ).loc b))

/-- The printed index maps over the grid: the row windows sit at block row `t`, column block 0; the weights and biases
    at block (0, 0). -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Every block row is some point's. -/
theorem idx_onto1 : ∀ q0 : Fin 20, ∃ t : Fin cfg1.N, t.val = q0.val :=
  (by decide +kernel : ∀ q0 : Fin 20, ∃ t : Fin grid1.N, t.val = q0.val)

theorem t_lt1 (t : Fin cfg1.N) : t.val < 20 := lt_of_lt_of_eq t.isLt N_1

/-- The weight and bias windows hold their whole arrays at every point. -/
theorem blk1_2 (c : Dev nD) (t : Fin cfg1.N) : iblk1 V c 2 t = V c main_arg6 := by
  obtain ⟨e00, e01, e10, e11, e20, e21, e30, e31, e40, e41, e50, e51, e60, e61, e70, e71, e80, e81⟩ := idx_facts1 t
  funext y
  show V c main_arg6 (((cfg1.win 2).blk t).view.emb y) = V c main_arg6 y
  refine congrArg (V c main_arg6) (funext fun ax => Fin.ext ?_)
  match ax with
  | ⟨0, _⟩ => show win1_2.index t (0 : Fin 2) * 64 + 1 * (y 0).val = (y 0).val; omega
  | ⟨1, _⟩ => show win1_2.index t (1 : Fin 2) * 64 + 1 * (y 1).val = (y 1).val; omega
theorem blk1_4 (c : Dev nD) (t : Fin cfg1.N) : iblk1 V c 4 t = V c main_arg8 := by
  obtain ⟨e00, e01, e10, e11, e20, e21, e30, e31, e40, e41, e50, e51, e60, e61, e70, e71, e80, e81⟩ := idx_facts1 t
  funext y
  show V c main_arg8 (((cfg1.win 4).blk t).view.emb y) = V c main_arg8 y
  refine congrArg (V c main_arg8) (funext fun ax => Fin.ext ?_)
  match ax with
  | ⟨0, _⟩ => show win1_4.index t (0 : Fin 2) * 64 + 1 * (y 0).val = (y 0).val; omega
  | ⟨1, _⟩ => show win1_4.index t (1 : Fin 2) * 64 + 1 * (y 1).val = (y 1).val; omega
theorem blk1_6 (c : Dev nD) (t : Fin cfg1.N) : iblk1 V c 6 t = V c main_arg10 := by
  obtain ⟨e00, e01, e10, e11, e20, e21, e30, e31, e40, e41, e50, e51, e60, e61, e70, e71, e80, e81⟩ := idx_facts1 t
  funext y
  show V c main_arg10 (((cfg1.win 6).blk t).view.emb y) = V c main_arg10 y
  refine congrArg (V c main_arg10) (funext fun ax => Fin.ext ?_)
  match ax with
  | ⟨0, _⟩ => show win1_6.index t (0 : Fin 2) * 64 + 1 * (y 0).val = (y 0).val; omega
  | ⟨1, _⟩ => show win1_6.index t (1 : Fin 2) * 32 + 1 * (y 1).val = (y 1).val; omega
theorem blk1_3 (c : Dev nD) (t : Fin cfg1.N) : iblk1 V c 3 t = V c main_v38 := by
  obtain ⟨e00, e01, e10, e11, e20, e21, e30, e31, e40, e41, e50, e51, e60, e61, e70, e71, e80, e81⟩ := idx_facts1 t
  funext y
  show V c main_v38 (((cfg1.win 3).blk t).view.emb y) = V c main_v38 y
  refine congrArg (V c main_v38) (funext fun ax => Fin.ext ?_)
  match ax with
  | ⟨0, _⟩ => show win1_3.index t (0 : Fin 2) * 1 + 1 * (y 0).val = (y 0).val; omega
  | ⟨1, _⟩ => show win1_3.index t (1 : Fin 2) * 64 + 1 * (y 1).val = (y 1).val; omega
theorem blk1_5 (c : Dev nD) (t : Fin cfg1.N) : iblk1 V c 5 t = V c main_v39 := by
  obtain ⟨e00, e01, e10, e11, e20, e21, e30, e31, e40, e41, e50, e51, e60, e61, e70, e71, e80, e81⟩ := idx_facts1 t
  funext y
  show V c main_v39 (((cfg1.win 5).blk t).view.emb y) = V c main_v39 y
  refine congrArg (V c main_v39) (funext fun ax => Fin.ext ?_)
  match ax with
  | ⟨0, _⟩ => show win1_5.index t (0 : Fin 2) * 1 + 1 * (y 0).val = (y 0).val; omega
  | ⟨1, _⟩ => show win1_5.index t (1 : Fin 2) * 64 + 1 * (y 1).val = (y 1).val; omega
theorem blk1_7 (c : Dev nD) (t : Fin cfg1.N) : iblk1 V c 7 t = V c main_v40 := by
  obtain ⟨e00, e01, e10, e11, e20, e21, e30, e31, e40, e41, e50, e51, e60, e61, e70, e71, e80, e81⟩ := idx_facts1 t
  funext y
  show V c main_v40 (((cfg1.win 7).blk t).view.emb y) = V c main_v40 y
  refine congrArg (V c main_v40) (funext fun ax => Fin.ext ?_)
  match ax with
  | ⟨0, _⟩ => show win1_7.index t (0 : Fin 2) * 1 + 1 * (y 0).val = (y 0).val; omega
  | ⟨1, _⟩ => show win1_7.index t (1 : Fin 2) * 32 + 1 * (y 1).val = (y 1).val; omega

/-- The two row windows hold rows `5000 t …` of their arrays. -/
theorem blk1_0 (c : Dev nD) (t : Fin cfg1.N) (p : Fin 5000) (n : Fin 64) :
    iblk1 V c 0 t (ix2 p n) = V c main_v25 (ix2 (⟨t.val * 5000 + p.val, by have := p.isLt; have := t_lt1 t; omega⟩ : Fin 100000) n) := by
  obtain ⟨e00, e01, e10, e11, e20, e21, e30, e31, e40, e41, e50, e51, e60, e61, e70, e71, e80, e81⟩ := idx_facts1 t
  show V c main_v25 (((cfg1.win 0).blk t).view.emb (ix2 p n)) = _
  refine congrArg (V c main_v25) (funext fun ax => Fin.ext ?_)
  match ax with
  | ⟨0, _⟩ => show win1_0.index t (0 : Fin 2) * 5000 + 1 * p.val = t.val * 5000 + p.val; omega
  | ⟨1, _⟩ => show win1_0.index t (1 : Fin 2) * 64 + 1 * n.val = n.val; omega
theorem blk1_1 (c : Dev nD) (t : Fin cfg1.N) (p : Fin 5000) (n : Fin 64) :
    iblk1 V c 1 t (ix2 p n) = V c main_v37 (ix2 (⟨t.val * 5000 + p.val, by have := p.isLt; have := t_lt1 t; omega⟩ : Fin 100000) n) := by
  obtain ⟨e00, e01, e10, e11, e20, e21, e30, e31, e40, e41, e50, e51, e60, e61, e70, e71, e80, e81⟩ := idx_facts1 t
  show V c main_v37 (((cfg1.win 1).blk t).view.emb (ix2 p n)) = _
  refine congrArg (V c main_v37) (funext fun ax => Fin.ext ?_)
  match ax with
  | ⟨0, _⟩ => show win1_1.index t (0 : Fin 2) * 5000 + 1 * p.val = t.val * 5000 + p.val; omega
  | ⟨1, _⟩ => show win1_1.index t (1 : Fin 2) * 64 + 1 * n.val = n.val; omega

/-- Entry `(p, q)` of the output block at point `t` is entry `(5000 t + p, q)` of the array. -/
theorem emb1_8 (t : Fin cfg1.N) (p : Fin 5000) (q : Fin 32) :
    ((cfg1.win 8).blk t).view.emb (ix2 p q) = ix2 (⟨t.val * 5000 + p.val, by have := p.isLt; have := t_lt1 t; omega⟩ : Fin 100000) q := by
  obtain ⟨e00, e01, e10, e11, e20, e21, e30, e31, e40, e41, e50, e51, e60, e61, e70, e71, e80, e81⟩ := idx_facts1 t
  funext ax; apply Fin.ext
  match ax with
  | ⟨0, _⟩ => show win1_8.index t (0 : Fin 2) * 5000 + 1 * p.val = t.val * 5000 + p.val; omega
  | ⟨1, _⟩ => show win1_8.index t (1 : Fin 2) * 32 + 1 * q.val = q.val; omega

/-- What point `t` writes back is block `t` of the whole-array map of the arrays as the call finds them. -/
theorem flushed1_eq (c : Dev nD) (t : Fin cfg1.N) :
    (dat1 V c).flushed 8 t = ((cfg1.win 8).blk t).view.read (Elt Ideal)
      (logits (V c main_v25) (V c main_v37) (V c main_arg6) (V c main_v38) (V c main_arg8) (V c main_v39)
        (V c main_arg10) (V c main_v40)) := by
  show (cfg1.win 8).cut (grid1.coords t) ((dat1 V c).after 8 t) = _
  rw [after1_8]
  unfold out1_8
  rw [View.canon_unit_zero off_zero]
  simp only [View.ld_unit_zero (S := S5000x64) off_zero, View.ld_unit_zero (S := S64x64) off_zero,
    View.ld_unit_zero (S := S1x64) off_zero, View.ld_unit_zero (S := S64x32) off_zero, View.ld_unit_zero (S := S1x32) off_zero]
  rw [blk1_2, blk1_4, blk1_6, blk1_3, blk1_5, blk1_7]
  funext j
  obtain ⟨p, q, rfl⟩ : ∃ (p : Fin 5000) (q : Fin 32), j = ix2 p q := ⟨j 0, j 1, eq_ix2 j⟩
  have hr : t.val * 5000 + 5000 ≤ 100000 := by have := t_lt1 t; omega
  refine (logits_block (V c main_v25) (V c main_v37) (V c main_arg6) (V c main_v38) (V c main_arg8) (V c main_v39)
    (V c main_arg10) (V c main_v40) (iblk1 V c 0 t) (iblk1 V c 1 t) (t.val * 5000) hr (blk1_0 V c t) (blk1_1 V c t) p q).trans ?_
  show logits _ _ _ _ _ _ _ _ _ = logits _ _ _ _ _ _ _ _ (((cfg1.win 8).blk t).view.emb (ix2 p q))
  rw [emb1_8]

/-- An index of the output array is in point `t`'s block iff each coordinate is in the block's range. -/
theorem mem_blk1 (t : Fin cfg1.N) (i : S100000x32.Idx) :
    i ∈ ((cfg1.win 8).blk t).view.set ↔ ∀ a : Fin 2, win1_8.index t a * S5000x32.size a ≤ (i a).val ∧ (i a).val < win1_8.index t a * S5000x32.size a + S5000x32.size a := by
  show i ∈ ((View.whole main_v41).slice (win1_8.rect t)).set ↔ _
  rw [View.set_slice_whole, Rect.mem_set_unit]
  exact Iff.rfl

/-- Every index of the output array is in some point's block: row `r` in block `r / 5000`. -/
theorem cover1 (i : S100000x32.Idx) : ∃ t : Fin cfg1.N, (cfg1.win 8).flush t = true ∧ i ∈ ((cfg1.win 8).blk t).view.set := by
  have hi0 : (i 0).val < 100000 := (i 0).isLt
  have hi1 : (i 1).val < 32 := (i 1).isLt
  obtain ⟨t, ht⟩ := idx_onto1 ⟨(i 0).val / 5000, by omega⟩
  have ht' : t.val = (i 0).val / 5000 := ht
  obtain ⟨e00, e01, e10, e11, e20, e21, e30, e31, e40, e41, e50, e51, e60, e61, e70, e71, e80, e81⟩ := idx_facts1 t
  refine ⟨t, flush1_8 t, ?_⟩
  rw [mem_blk1]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 32 ≤ (i 1).val ∧ (i 1).val < win1_8.index t (1 : Fin 2) * 32 + 32; omega

/-- The second call's output array after the call: the output map of the arrays the call found. -/
theorem array1 (c : Dev nD) : (dat1 V c).arrAt 8 cfg1.N
    = logits (V c main_v25) (V c main_v37) (V c main_arg6) (V c main_v38) (V c main_arg8) (V c main_v39)
        (V c main_arg10) (V c main_v40) :=
  (dat1 V c).arrAt_eq_of_cover 8 _ (fun t _ => flushed1_eq V c t) cover1

end Cert.KernelIdeal.Dense

end
-- ==== Proof.Network.lean ====
/-
  The host side of the graph layer, named.

  From the edge list `e` (row 0 the sources, row 1 the destinations) the program gathers the source rows of a feature
  array, adds them up per destination node, and divides by the node's in-degree clamped below at one: the mean over
  incoming neighbours.  The gather, the scatter-add and the quotient are kept as the operations the program prints;
  nothing here opens them.  With them the whole network is one function of the twelve arguments: a rectified layer of
  the features and their neighbour means, a second rectified layer of the hidden rows and THEIR neighbour means, and
  an output map of the result.
-/
import proofs.«172024_j52931176956147_2_alg».proof.Proof.Gen.KernelIdeal
import proofs.«172024_j52931176956147_2_alg».proof.Proof.Blocks1

noncomputable section

namespace Cert.KernelIdeal.Dense

open Idealize.ShloMosaic Idealize.ShloMosaic.ValueIdx
open Cert.KernelIdeal Cert.KernelIdeal.Gen

/-- Row `r` of the edge list as a vector of 1600000 node numbers. -/
def edgeRow0 (e : S2x1600000.Idx → BitVec 32) : S1600000.Idx → BitVec 32 :=
  shapeCast S1600000 (extractStridedSlice S1x1600000 ![0, 0] e slices_S2x1600000_S1x1600000_0_0) shapeCasts_S1x1600000_S1600000
def edgeRow1 (e : S2x1600000.Idx → BitVec 32) : S1600000.Idx → BitVec 32 :=
  shapeCast S1600000 (extractStridedSlice S1x1600000 ![1, 0] e slices_S2x1600000_S1x1600000_1_0) shapeCasts_S1x1600000_S1600000

/-- The sources as a column, a negative number moved up once by the node count. -/
def srcCol (e : S2x1600000.Idx → BitVec 32) : S1600000x1.Idx → BitVec 32 :=
  broadcastInDim S1600000x1 ![0] bcast_S1600000_S1600000x1_0
    (select (cmpi .slt (edgeRow0 e) (broadcastInDim S1600000 ![] bcast_S_S1600000 (constantI S_ 32 0#32)))
      (addi (edgeRow0 e) (broadcastInDim S1600000 ![] bcast_S_S1600000 (constantI S_ 32 100000#32))) (edgeRow0 e))

/-- The destinations as a column. -/
def dstCol (e : S2x1600000.Idx → BitVec 32) : S1600000x1.Idx → BitVec 32 :=
  broadcastInDim S1600000x1 ![0] bcast_S1600000_S1600000x1_0 (edgeRow1 e)

/-- The in-degree of every node, clamped below at one, as a column. -/
def degCol (e : S2x1600000.Idx → BitVec 32) : S100000x1.Idx → EReal :=
  broadcastInDim S100000x1 ![0] bcast_S100000_S100000x1_0
    (maximumf (F := Ideal)
      (Host.scatterAdd scatter_S100000_S1600000x1_S1600000_n_0_0_1
        (broadcastInDim S100000 ![] bcast_S_S100000 (constant (F := Ideal) S_ .f32 0x00000000#32)) (dstCol e)
        (broadcastInDim S1600000 ![] bcast_S_S1600000 (constant (F := Ideal) S_ .f32 0x3F800000#32)))
      (broadcastInDim S100000 ![] bcast_S_S100000 (constant (F := Ideal) S_ .f32 0x3F800000#32)))

/-- The mean of the rows of `h` over each node's incoming neighbours. -/
def neighMean (e : S2x1600000.Idx → BitVec 32) (h : S100000x64.Idx → EReal) : S100000x64.Idx → EReal :=
  Host.divf (F := Ideal)
    (Host.scatterAdd scatter_S100000x64_S1600000x1_S1600000x64_1_0_0_1
      (broadcastInDim S100000x64 ![] bcast_S_S100000x64 (constant (F := Ideal) S_ .f32 0x00000000#32)) (dstCol e)
      (Host.gather gather_S100000x64_S1600000x1_S1600000x64_1_0_n_n_0_1_164 h (srcCol e)))
    (broadcastInDim S100000x64 ![0, 1] bcast_S100000x1_S100000x64_0_1 (degCol e))

/-- A bias vector as a one-row matrix. -/
def row64 (b : S64.Idx → EReal) : S1x64.Idx → EReal := shapeCast S1x64 b shapeCasts_S64_S1x64
def row32 (b : S32.Idx → EReal) : S1x32.Idx → EReal := shapeCast S1x32 b shapeCasts_S32_S1x32

/-- The first layer's hidden rows. -/
def hidden (x : S100000x64.Idx → EReal) (e : S2x1600000.Idx → BitVec 32) (Ws : S64x64.Idx → EReal) (bs : S64.Idx → EReal)
    (Wn : S64x64.Idx → EReal) (bn : S64.Idx → EReal) : S100000x64.Idx → EReal :=
  layer x (neighMean e x) Ws (row64 bs) Wn (row64 bn)

/-- The whole network. -/
def network (x : S100000x64.Idx → EReal) (e : S2x1600000.Idx → BitVec 32) (Ws1 : S64x64.Idx → EReal) (bs1 : S64.Idx → EReal)
    (Wn1 : S64x64.Idx → EReal) (bn1 : S64.Idx → EReal) (Ws2 : S64x64.Idx → EReal) (bs2 : S64.Idx → EReal)
    (Wn2 : S64x64.Idx → EReal) (bn2 : S64.Idx → EReal) (Wo : S64x32.Idx → EReal) (bo : S32.Idx → EReal) : S100000x32.Idx → EReal :=
  logits (hidden x e Ws1 bs1 Wn1 bn1) (neighMean e (hidden x e Ws1 bs1 Wn1 bn1)) Ws2 (row64 bs2) Wn2 (row64 bn2) Wo (row32 bo)

end Cert.KernelIdeal.Dense

end
-- ==== Proof.KernelValue.lean ====
/-
  The kernel program's result as the network of its arguments.

  The run names every buffer at the end of the fold of the four stretches.  Read back: before the first call the host
  has put the neighbour means of the features, and the two biases as rows, beside the arguments; the first call's
  output array is then the first layer's hidden rows; between the calls the host puts the neighbour means of THOSE
  rows and three more bias rows (the edge columns and the clamped degrees are the ones it made before the first
  call); the second call's output array is the output map of the second layer.  So the result array is the whole
  network of the twelve argument arrays.
-/
import proofs.«172024_j52931176956147_2_alg».proof.Proof.KernelRun
import proofs.«172024_j52931176956147_2_alg».proof.Proof.Network
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Dense

variable (m : (ℓ : Loc nD τ sig) → Buf (Elt Ideal) ℓ) (ρ : Dev nD → PrngReg) (c : Dev nD)

/-! ## What the first call finds -/

theorem V1_arg0 : V1 m ρ c main_arg0 = (m ((c.tc : Thread nD τ).loc main_arg0)) := by
  show StableHlo.after hostOps0 (W0 m ρ c) (Proc.devRef .tc main_arg0) = _
  after_results_simp <;> rfl
theorem V1_arg2 : V1 m ρ c main_arg2 = (m ((c.tc : Thread nD τ).loc main_arg2)) := by
  show StableHlo.after hostOps0 (W0 m ρ c) (Proc.devRef .tc main_arg2) = _
  after_results_simp <;> rfl
theorem V1_arg4 : V1 m ρ c main_arg4 = (m ((c.tc : Thread nD τ).loc main_arg4)) := by
  show StableHlo.after hostOps0 (W0 m ρ c) (Proc.devRef .tc main_arg4) = _
  after_results_simp <;> rfl
/-- The neighbour means of the features. -/
theorem V1_v22 : V1 m ρ c main_v22 = neighMean (m ((c.tc : Thread nD τ).loc main_arg1)) (m ((c.tc : Thread nD τ).loc main_arg0)) := by
  show StableHlo.after hostOps0 (W0 m ρ c) (Proc.devRef .tc main_v22) = _
  after_results_simp <;> rfl
theorem V1_v23 : V1 m ρ c main_v23 = row64 (m ((c.tc : Thread nD τ).loc main_arg3)) := by
  show StableHlo.after hostOps0 (W0 m ρ c) (Proc.devRef .tc main_v23) = _
  after_results_simp <;> rfl
theorem V1_v24 : V1 m ρ c main_v24 = row64 (m ((c.tc : Thread nD τ).loc main_arg5)) := by
  show StableHlo.after hostOps0 (W0 m ρ c) (Proc.devRef .tc main_v24) = _
  after_results_simp <;> rfl

/-! ## What the first call leaves -/

/-- The first call's output array: the hidden rows. -/
theorem W2_v25 : W2 m ρ c (Proc.devRef .tc main_v25)
    = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W2_arr m ρ c 6).trans ((array0 (V1 m ρ) c).trans ?_)
  rw [V1_arg0, V1_v22, V1_arg2, V1_v23, V1_arg4, V1_v24]
  rfl

/-- The buffers the host made before the first call, and the later arguments, pass through the call. -/
theorem W2_v1 : W2 m ρ c (Proc.devRef .tc main_v1) = edgeRow0 (m ((c.tc : Thread nD τ).loc main_arg1)) := by
  refine (W2_of_ne m ρ c main_v1 (by decide)).trans ?_
  show StableHlo.after hostOps0 (W0 m ρ c) (Proc.devRef .tc main_v1) = _
  after_results_simp <;> rfl
theorem W2_v3 : W2 m ρ c (Proc.devRef .tc main_v3) = edgeRow1 (m ((c.tc : Thread nD τ).loc main_arg1)) := by
  refine (W2_of_ne m ρ c main_v3 (by decide)).trans ?_
  show StableHlo.after hostOps0 (W0 m ρ c) (Proc.devRef .tc main_v3) = _
  after_results_simp <;> rfl
theorem W2_v20 : W2 m ρ c (Proc.devRef .tc main_v20) = degCol (m ((c.tc : Thread nD τ).loc main_arg1)) := by
  refine (W2_of_ne m ρ c main_v20 (by decide)).trans ?_
  show StableHlo.after hostOps0 (W0 m ρ c) (Proc.devRef .tc main_v20) = _
  after_results_simp <;> rfl
theorem W2_arg6 : W2 m ρ c (Proc.devRef .tc main_arg6) = (m ((c.tc : Thread nD τ).loc main_arg6)) := by
  refine (W2_of_ne m ρ c main_arg6 (by decide)).trans ?_
  show StableHlo.after hostOps0 (W0 m ρ c) (Proc.devRef .tc main_arg6) = _
  after_results_simp <;> rfl
theorem W2_arg7 : W2 m ρ c (Proc.devRef .tc main_arg7) = (m ((c.tc : Thread nD τ).loc main_arg7)) := by
  refine (W2_of_ne m ρ c main_arg7 (by decide)).trans ?_
  show StableHlo.after hostOps0 (W0 m ρ c) (Proc.devRef .tc main_arg7) = _
  after_results_simp <;> rfl
theorem W2_arg8 : W2 m ρ c (Proc.devRef .tc main_arg8) = (m ((c.tc : Thread nD τ).loc main_arg8)) := by
  refine (W2_of_ne m ρ c main_arg8 (by decide)).trans ?_
  show StableHlo.after hostOps0 (W0 m ρ c) (Proc.devRef .tc main_arg8) = _
  after_results_simp <;> rfl
theorem W2_arg9 : W2 m ρ c (Proc.devRef .tc main_arg9) = (m ((c.tc : Thread nD τ).loc main_arg9)) := by
  refine (W2_of_ne m ρ c main_arg9 (by decide)).trans ?_
  show StableHlo.after hostOps0 (W0 m ρ c) (Proc.devRef .tc main_arg9) = _
  after_results_simp <;> rfl
theorem W2_arg10 : W2 m ρ c (Proc.devRef .tc main_arg10) = (m ((c.tc : Thread nD τ).loc main_arg10)) := by
  refine (W2_of_ne m ρ c main_arg10 (by decide)).trans ?_
  show StableHlo.after hostOps0 (W0 m ρ c) (Proc.devRef .tc main_arg10) = _
  after_results_simp <;> rfl
theorem W2_arg11 : W2 m ρ c (Proc.devRef .tc main_arg11) = (m ((c.tc : Thread nD τ).loc main_arg11)) := by
  refine (W2_of_ne m ρ c main_arg11 (by decide)).trans ?_
  show StableHlo.after hostOps0 (W0 m ρ c) (Proc.devRef .tc main_arg11) = _
  after_results_simp <;> rfl

/-! ## What the second call finds -/

theorem V3_v25 : V3 m ρ c main_v25 = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps1 (W2 m ρ c) (Proc.devRef .tc main_v25) = _
  after_results_simp
  exact W2_v25 m ρ c
/-- The neighbour means of the hidden rows. -/
theorem V3_v37 : V3 m ρ c main_v37
    = neighMean (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show StableHlo.after hostOps1 (W2 m ρ c) (Proc.devRef .tc main_v37) = _
  after_results_simp
  rw [W2_v25, W2_v1, W2_v3, W2_v20]
  rfl
theorem V3_arg6 : V3 m ρ c main_arg6 = (m ((c.tc : Thread nD τ).loc main_arg6)) := by
  show StableHlo.after hostOps1 (W2 m ρ c) (Proc.devRef .tc main_arg6) = _
  after_results_simp
  exact W2_arg6 m ρ c
theorem V3_arg8 : V3 m ρ c main_arg8 = (m ((c.tc : Thread nD τ).loc main_arg8)) := by
  show StableHlo.after hostOps1 (W2 m ρ c) (Proc.devRef .tc main_arg8) = _
  after_results_simp
  exact W2_arg8 m ρ c
theorem V3_arg10 : V3 m ρ c main_arg10 = (m ((c.tc : Thread nD τ).loc main_arg10)) := by
  show StableHlo.after hostOps1 (W2 m ρ c) (Proc.devRef .tc main_arg10) = _
  after_results_simp
  exact W2_arg10 m ρ c
theorem V3_v38 : V3 m ρ c main_v38 = row64 (m ((c.tc : Thread nD τ).loc main_arg7)) := by
  show StableHlo.after hostOps1 (W2 m ρ c) (Proc.devRef .tc main_v38) = _
  after_results_simp
  rw [W2_arg7]
  rfl
theorem V3_v39 : V3 m ρ c main_v39 = row64 (m ((c.tc : Thread nD τ).loc main_arg9)) := by
  show StableHlo.after hostOps1 (W2 m ρ c) (Proc.devRef .tc main_v39) = _
  after_results_simp
  rw [W2_arg9]
  rfl
theorem V3_v40 : V3 m ρ c main_v40 = row32 (m ((c.tc : Thread nD τ).loc main_arg11)) := by
  show StableHlo.after hostOps1 (W2 m ρ c) (Proc.devRef .tc main_v40) = _
  after_results_simp
  rw [W2_arg11]
  rfl

/-! ## The result -/

/-- The result array at the end of the fold is the network of the arguments. -/
theorem result_eq : W4 m ρ c (Proc.devRef .tc main_v41)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W4_arr m ρ c 8).trans ((array1 (V3 m ρ) c).trans ?_)
  rw [V3_v25, V3_v37, V3_arg6, V3_v38, V3_arg8, V3_v39, V3_arg10, V3_v40]
  rfl

/-- Every weakly fair execution terminates with the result array at the network of the arguments, the arguments
    unchanged. -/
theorem run : θ_run defs (onTc (τ := τ) (main (F := Ideal))) ⟨m, fun _ => 0, ρ⟩ (fun r => ∀ c : Dev nD,
      r.2.mem ((c.tc : Thread nD τ).loc main_v41) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩) (run_result m ρ)

end Cert.KernelIdeal.Whole

end
-- ==== Proof.RefValue.lean ====
/-
  The reference program's result as the same network.

  The reference computes, with plain array operations: the neighbour means of the features (the same gather,
  scatter-add and quotient as the kernel program's host side, the clamp written `max 1 deg` where the kernel's host
  writes `max deg 1`), a rectified layer as two matrix products plus biases laid along the rows, the neighbour means of
  the hidden rows, a second rectified layer, and the output map.  Entry by entry a matrix product is the sum over the
  64 inner positions of the products of the entries, which is what the kernel bodies' products are; so the reference's
  result is the network of its twelve arguments.
-/
import proofs.«172024_j52931176956147_2_alg».proof.Proof.Gen.ReferenceIdeal.Read
import proofs.«172024_j52931176956147_2_alg».proof.Proof.Network

set_option maxRecDepth 16384

noncomputable section

namespace Cert.ReferenceIdeal.RefValue

open Idealize.ShloMosaic Idealize.ShloMosaic.ValueIdx
open Cert.ReferenceIdeal Cert.ReferenceIdeal.Gen Cert.ReferenceIdeal.Read
open Cert.KernelIdeal.Dense (layer layerAt outAt logits neighMean row64 row32 network srcCol dstCol degCol edgeRow0 edgeRow1)

/-! ## The host side: the same columns, the same means -/

/-- The larger of two vectors, entry by entry, does not depend on their order. -/
theorem maximumf_comm_vec {s : Shape} (a b : FVec Ideal s .f32) : maximumf (F := Ideal) a b = maximumf (F := Ideal) b a :=
  funext fun i => Std.Commutative.comm (op := FloatOps.maximumf (F := Ideal) (φ := .f32)) (a i) (b i)

/-- The clamp, with its operands in the other order. -/
theorem clip1 (e : S2x1600000.Idx → BitVec 32) : val_main_v19 (F := Ideal) e = degCol e := by
  show broadcastInDim S100000x1 ![0] bcast_S100000_S100000x1_0
      (maximumf (F := Ideal) (val_main_call0_v1 (F := Ideal)) (val_main_v17 (F := Ideal) e)) = _
  rw [maximumf_comm_vec]
  rfl
theorem clip2 (e : S2x1600000.Idx → BitVec 32) : val_main_v47 (F := Ideal) e = degCol e := by
  show broadcastInDim S100000x1 ![0] bcast_S100000_S100000x1_0
      (maximumf (F := Ideal) (val_main_call2_v1 (F := Ideal)) (val_main_v45 (F := Ideal) e)) = _
  rw [maximumf_comm_vec]
  rfl

/-- The neighbour means of the features. -/
theorem mean1 (x0 : S100000x64.Idx → EReal) (e : S2x1600000.Idx → BitVec 32) : val_main_v21 (F := Ideal) x0 e = neighMean e x0 := by
  show Host.divf (F := Ideal) (val_main_v13 (F := Ideal) x0 e)
      (broadcastInDim S100000x64 ![0, 1] bcast_S100000x1_S100000x64_0_1 (val_main_v19 (F := Ideal) e)) = _
  rw [clip1]
  rfl

/-- The neighbour means of the hidden rows. -/
theorem mean2 (x0 : S100000x64.Idx → EReal) (e : S2x1600000.Idx → BitVec 32) (x2 : S64x64.Idx → EReal) (x3 : S64.Idx → EReal)
    (x4 : S64x64.Idx → EReal) (x5 : S64.Idx → EReal) :
    val_main_v49 (F := Ideal) x0 e x2 x3 x4 x5 = neighMean e (val_main_v31 (F := Ideal) x0 e x2 x3 x4 x5) := by
  show Host.divf (F := Ideal) (val_main_v41 (F := Ideal) x0 e x2 x3 x4 x5)
      (broadcastInDim S100000x64 ![0, 1] bcast_S100000x1_S100000x64_0_1 (val_main_v47 (F := Ideal) e)) = _
  rw [clip2]
  rfl

/-! ## Indices of the products and the biases -/

theorem lidx22 (p : Fin 100000) (q : Fin 64) (k : Fin 64) : lidx_main_v22 (ix2 p q) k = ix2 p k :=
  funext fun a => Fin.ext (by match a with | ⟨0, _⟩ => rfl | ⟨1, _⟩ => rfl)
theorem ridx22 (p : Fin 100000) (q : Fin 64) (k : Fin 64) : ridx_main_v22 (ix2 p q) k = ix2 k q :=
  funext fun a => Fin.ext (by match a with | ⟨0, _⟩ => rfl | ⟨1, _⟩ => rfl)
theorem lidx26 (p : Fin 100000) (q : Fin 64) (k : Fin 64) : lidx_main_v26 (ix2 p q) k = ix2 p k :=
  funext fun a => Fin.ext (by match a with | ⟨0, _⟩ => rfl | ⟨1, _⟩ => rfl)
theorem ridx26 (p : Fin 100000) (q : Fin 64) (k : Fin 64) : ridx_main_v26 (ix2 p q) k = ix2 k q :=
  funext fun a => Fin.ext (by match a with | ⟨0, _⟩ => rfl | ⟨1, _⟩ => rfl)
theorem lidx50 (p : Fin 100000) (q : Fin 64) (k : Fin 64) : lidx_main_v50 (ix2 p q) k = ix2 p k :=
  funext fun a => Fin.ext (by match a with | ⟨0, _⟩ => rfl | ⟨1, _⟩ => rfl)
theorem ridx50 (p : Fin 100000) (q : Fin 64) (k : Fin 64) : ridx_main_v50 (ix2 p q) k = ix2 k q :=
  funext fun a => Fin.ext (by match a with | ⟨0, _⟩ => rfl | ⟨1, _⟩ => rfl)
theorem lidx54 (p : Fin 100000) (q : Fin 64) (k : Fin 64) : lidx_main_v54 (ix2 p q) k = ix2 p k :=
  funext fun a => Fin.ext (by match a with | ⟨0, _⟩ => rfl | ⟨1, _⟩ => rfl)
theorem ridx54 (p : Fin 100000) (q : Fin 64) (k : Fin 64) : ridx_main_v54 (ix2 p q) k = ix2 k q :=
  funext fun a => Fin.ext (by match a with | ⟨0, _⟩ => rfl | ⟨1, _⟩ => rfl)
theorem lidx60 (p : Fin 100000) (q : Fin 32) (k : Fin 64) : lidx_main_v60 (ix2 p q) k = ix2 p k :=
  funext fun a => Fin.ext (by match a with | ⟨0, _⟩ => rfl | ⟨1, _⟩ => rfl)
theorem ridx60 (p : Fin 100000) (q : Fin 32) (k : Fin 64) : ridx_main_v60 (ix2 p q) k = ix2 k q :=
  funext fun a => Fin.ext (by match a with | ⟨0, _⟩ => rfl | ⟨1, _⟩ => rfl)

theorem bias24 (b : S64.Idx → EReal) (p : Fin 100000) (q : Fin 64) : val_main_v24 (F := Ideal) b (ix2 p q) = b (ix1 q) := by
  rw [val_main_v24_apply, val_main_v23_apply]
  exact congrArg b (funext fun a => Fin.ext (by match a with | ⟨0, _⟩ => rfl))
theorem bias28 (b : S64.Idx → EReal) (p : Fin 100000) (q : Fin 64) : val_main_v28 (F := Ideal) b (ix2 p q) = b (ix1 q) := by
  rw [val_main_v28_apply, val_main_v27_apply]
  exact congrArg b (funext fun a => Fin.ext (by match a with | ⟨0, _⟩ => rfl))
theorem bias52 (b : S64.Idx → EReal) (p : Fin 100000) (q : Fin 64) : val_main_v52 (F := Ideal) b (ix2 p q) = b (ix1 q) := by
  rw [val_main_v52_apply, val_main_v51_apply]
  exact congrArg b (funext fun a => Fin.ext (by match a with | ⟨0, _⟩ => rfl))
theorem bias56 (b : S64.Idx → EReal) (p : Fin 100000) (q : Fin 64) : val_main_v56 (F := Ideal) b (ix2 p q) = b (ix1 q) := by
  rw [val_main_v56_apply, val_main_v55_apply]
  exact congrArg b (funext fun a => Fin.ext (by match a with | ⟨0, _⟩ => rfl))
theorem bias62 (b : S32.Idx → EReal) (p : Fin 100000) (q : Fin 32) : val_main_v62 (F := Ideal) b (ix2 p q) = b (ix1 q) := by
  rw [val_main_v62_apply, val_main_v61_apply]
  exact congrArg b (funext fun a => Fin.ext (by match a with | ⟨0, _⟩ => rfl))

theorem relu1_zero (i : S100000x64.Idx) : val_main_call1_v0 (F := Ideal) i = 0 := by
  rw [val_main_call1_v0_apply, val_main_call1_cst_apply]; exact Ideal.ofBits_zero_f32
theorem relu3_zero (i : S100000x64.Idx) : val_main_call3_v0 (F := Ideal) i = 0 := by
  rw [val_main_call3_v0_apply, val_main_call3_cst_apply]; exact Ideal.ofBits_zero_f32

/-- A bias vector as a one-row matrix, read at its entry. -/
theorem row64_apply (b : S64.Idx → EReal) (q : Fin 64) : row64 b (ix2 (0 : Fin 1) q) = b (ix1 q) := by
  unfold row64
  refine (shapeCast_addUnit_apply ![64] b _ (ix2 (0 : Fin 1) q)).trans ?_
  exact congrArg b (funext fun a => by match a with | ⟨0, _⟩ => rfl)
theorem row32_apply (b : S32.Idx → EReal) (q : Fin 32) : row32 b (ix2 (0 : Fin 1) q) = b (ix1 q) := by
  unfold row32
  refine (shapeCast_addUnit_apply ![32] b _ (ix2 (0 : Fin 1) q)).trans ?_
  exact congrArg b (funext fun a => by match a with | ⟨0, _⟩ => rfl)

/-! ## The layers -/

/-- The first layer's hidden rows. -/
theorem hidden_ref (x0 : S100000x64.Idx → EReal) (e : S2x1600000.Idx → BitVec 32) (x2 : S64x64.Idx → EReal) (x3 : S64.Idx → EReal)
    (x4 : S64x64.Idx → EReal) (x5 : S64.Idx → EReal) :
    val_main_v31 (F := Ideal) x0 e x2 x3 x4 x5 = Cert.KernelIdeal.Dense.hidden x0 e x2 x3 x4 x5 := by
  funext i
  obtain ⟨p, q, rfl⟩ : ∃ (p : Fin 100000) (q : Fin 64), i = ix2 p q := ⟨i 0, i 1, eq_ix2 i⟩
  rw [val_main_v31_apply, val_main_v30_apply, val_main_v25_apply, val_main_v29_apply, val_main_v22_apply, val_main_v26_apply,
    bias24, bias28, relu1_zero]
  simp only [lidx22, ridx22, lidx26, ridx26, mean1]
  unfold Cert.KernelIdeal.Dense.hidden layer layerAt
  rw [row64_apply, row64_apply]
  rfl

/-- The second layer's rows, over the first layer's rows and their neighbour means. -/
theorem hidden2_ref (x0 : S100000x64.Idx → EReal) (e : S2x1600000.Idx → BitVec 32) (x2 : S64x64.Idx → EReal) (x3 : S64.Idx → EReal)
    (x4 : S64x64.Idx → EReal) (x5 : S64.Idx → EReal) (x6 : S64x64.Idx → EReal) (x7 : S64.Idx → EReal)
    (x8 : S64x64.Idx → EReal) (x9 : S64.Idx → EReal) (p : Fin 100000) (q : Fin 64) :
    val_main_v59 (F := Ideal) x0 e x2 x3 x4 x5 x6 x7 x8 x9 (ix2 p q)
      = layerAt (Cert.KernelIdeal.Dense.hidden x0 e x2 x3 x4 x5) (neighMean e (Cert.KernelIdeal.Dense.hidden x0 e x2 x3 x4 x5)) x6 (row64 x7) x8 (row64 x9) p q := by
  rw [val_main_v59_apply, val_main_v58_apply, val_main_v53_apply, val_main_v57_apply, val_main_v50_apply, val_main_v54_apply,
    bias52, bias56, relu3_zero]
  simp only [lidx50, ridx50, lidx54, ridx54, mean2, hidden_ref]
  unfold layerAt
  rw [row64_apply, row64_apply]
  rfl

/-- The reference's result is the network of its arguments. -/
theorem result_ref (x0 : S100000x64.Idx → EReal) (e : S2x1600000.Idx → BitVec 32) (x2 : S64x64.Idx → EReal) (x3 : S64.Idx → EReal)
    (x4 : S64x64.Idx → EReal) (x5 : S64.Idx → EReal) (x6 : S64x64.Idx → EReal) (x7 : S64.Idx → EReal)
    (x8 : S64x64.Idx → EReal) (x9 : S64.Idx → EReal) (x10 : S64x32.Idx → EReal) (x11 : S32.Idx → EReal) :
    val_main_v63 (F := Ideal) x0 e x2 x3 x4 x5 x6 x7 x8 x9 x10 x11 = network x0 e x2 x3 x4 x5 x6 x7 x8 x9 x10 x11 := by
  funext i
  obtain ⟨p, q, rfl⟩ : ∃ (p : Fin 100000) (q : Fin 32), i = ix2 p q := ⟨i 0, i 1, eq_ix2 i⟩
  rw [val_main_v63_apply, val_main_v60_apply, bias62]
  simp only [lidx60, ridx60, hidden2_ref]
  unfold network logits outAt
  rw [row32_apply]
  rfl

end Cert.ReferenceIdeal.RefValue

end
-- ==== Proof.lean ====
/-
  A two-layer mean-aggregating graph network, as a tiled kernel program and as plain array operations: the claim's
  five parts.

  Both programs gather each edge's source row, add the rows up per destination node and divide by the node's clamped
  in-degree; both then apply, twice, a rectified layer `max ((x·Ws + bs) + (a·Wn + bn)) 0` to the rows `x` and their
  neighbour means `a`, and an output map `h·Wo + bo`.  The kernel program does the two dense stages in two kernel
  calls over 20 blocks of 5000 rows each; the reference does them with whole-array products.  Over the extended
  reals a product of matrices is, entry by entry, the sum of the products of the entries whichever program forms it,
  and the blocks tile the rows, so both results are one function, `network`, of the twelve arguments.  No law that
  needs finite entries is used: the two sides are the same expression, up to the order of the two operands of the
  clamp's maximum.  The three frame parts are the generated frames of the two kernel programs and the reference's
  generated run; the idealisation rewrote nothing, so its part is trivial.
-/
import proofs.«172024_j52931176956147_2_alg».proof.Defs
import proofs.«172024_j52931176956147_2_alg».proof.Proof.Gen.Kernel
import proofs.«172024_j52931176956147_2_alg».proof.Proof.Gen.Kernel.Skeleton
import proofs.«172024_j52931176956147_2_alg».proof.Proof.Gen.Kernel.Launch
import proofs.«172024_j52931176956147_2_alg».proof.Proof.Gen.Kernel.Points
import proofs.«172024_j52931176956147_2_alg».proof.Proof.Gen.Kernel.Frame
import proofs.«172024_j52931176956147_2_alg».proof.Proof.Gen.KernelIdeal
import proofs.«172024_j52931176956147_2_alg».proof.Proof.Gen.KernelIdeal.Skeleton
import proofs.«172024_j52931176956147_2_alg».proof.Proof.Gen.KernelIdeal.Launch
import proofs.«172024_j52931176956147_2_alg».proof.Proof.Gen.KernelIdeal.Points
import proofs.«172024_j52931176956147_2_alg».proof.Proof.Gen.KernelIdeal.Frame
import proofs.«172024_j52931176956147_2_alg».proof.Proof.Gen.ReferenceIdeal
import proofs.«172024_j52931176956147_2_alg».proof.Proof.Gen.Pre_finite_inputs
import proofs.«172024_j52931176956147_2_alg».proof.Proof.Gen.ReferenceIdeal.Run
import proofs.«172024_j52931176956147_2_alg».proof.Proof.Gen.ReferenceIdeal.Read
import proofs.«172024_j52931176956147_2_alg».proof.Proof.KernelValue
import proofs.«172024_j52931176956147_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network of the (agreeing) arguments. -/
theorem algebraic : Cert.algebraic_KernelIdeal_ReferenceIdeal := by
  intro m ρ m' ρ' _ hagree
  refine ⟨fun c => Cert.KernelIdeal.Dense.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.ReferenceIdeal.RefValue.result_ref]
  obtain ⟨a0, a1, a2, a3, a4, a5, a6, a7, a8, a9, a10, a11⟩ := hagree c
  rw [a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
